-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x72x72x72 : Shape := ⟨5, ![2, 96, 72, 72, 72]⟩
abbrev S96x96 : Shape := ⟨2, ![96, 96]⟩
abbrev S96 : Shape := ⟨1, ![96]⟩
abbrev S_ : Shape := ⟨0, ![]⟩

class Facts : Prop where
  bcast_S_S2x96x72x72x72 : S_.BroadcastsInDim S2x96x72x72x72 (![] : Fin 0 → Fin S2x96x72x72x72.rank)
  reducesTo_S2x96x72x72x72_S_d0_1_2_3_4 : S2x96x72x72x72.ReducesTo [0, 1, 2, 3, 4] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x96 .f32) (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S2x96x72x72x72 .f32) (main_arg1 : FVec F S96x96 .f32) (main_arg2 : FVec F S96x96 .f32) (main_arg3 : FVec F S96x96 .f32) (main_arg4 : FVec F S96x96 .f32) (main_arg5 : FVec F S96 .f32) : IVec S_ 1 :=
  let main_v0 : FVec F S2x96x72x72x72 .f32 := Host.absf main_arg0
  let main_cst : FVec F S_ .f32 := constant S_ .f32 0x7F800000#32
  let main_v1 : FVec F S2x96x72x72x72 .f32 := broadcastInDim S2x96x72x72x72 ![] bcast_S_S2x96x72x72x72 main_cst
  let main_v2 : IVec S2x96x72x72x72 1 := cmpf .olt main_v0 main_v1
  let main_c : IVec S_ 1 := constantI S_ 1 1#1
  let main_v3 : IVec S_ 1 := (fun x v => Host.reduce IntOp.andi x v reducesTo_S2x96x72x72x72_S_d0_1_2_3_4 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_v13 main_v16
-- ==== Kernel.lean ====
abbrev S2x96x72x72x72 : Shape := ⟨5, ![2, 96, 72, 72, 72]⟩
abbrev S96x96 : Shape := ⟨2, ![96, 96]⟩
abbrev S96 : Shape := ⟨1, ![96]⟩
abbrev S2x373248x96 : Shape := ⟨3, ![2, 373248, 96]⟩
abbrev S2x1728x216x96 : Shape := ⟨4, ![2, 1728, 216, 96]⟩
abbrev S3456x216x96 : Shape := ⟨3, ![3456, 216, 96]⟩
abbrev S1x96 : Shape := ⟨2, ![1, 96]⟩
abbrev S24x216x96 : Shape := ⟨3, ![24, 216, 96]⟩
abbrev S5184x96 : Shape := ⟨2, ![5184, 96]⟩
abbrev S24x216x216 : Shape := ⟨3, ![24, 216, 216]⟩
abbrev S24x216 : Shape := ⟨2, ![24, 216]⟩
abbrev S24x216x1 : Shape := ⟨3, ![24, 216, 1]⟩
abbrev S2x96x1728x216 : Shape := ⟨4, ![2, 96, 1728, 216]⟩

abbrev nBuf : Space → Nat
  | .hbm => 14
  | .vmem => 9
  | .smem => 0
  | _ => 0

abbrev bufTy : (tb : Table) → Fin (tcTables nBuf tb) → BufTy
  | .hbm, ⟨0, _⟩ => ⟨S2x96x72x72x72, .f32⟩
  | .hbm, ⟨1, _⟩ => ⟨S96x96, .f32⟩
  | .hbm, ⟨2, _⟩ => ⟨S96x96, .f32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S2x373248x96, .f32⟩
  | .hbm, ⟨7, _⟩ => ⟨S2x1728x216x96, .f32⟩
  | .hbm, ⟨8, _⟩ => ⟨S3456x216x96, .f32⟩
  | .hbm, ⟨9, _⟩ => ⟨S1x96, .f32⟩
  | .hbm, ⟨10, _⟩ => ⟨S3456x216x96, .f32⟩
  | .hbm, ⟨11, _⟩ => ⟨S2x1728x216x96, .f32⟩
  | .hbm, ⟨12, _⟩ => ⟨S2x96x1728x216, .f32⟩
  | .hbm, ⟨13, _⟩ => ⟨S2x96x72x72x72, .f32⟩
  | .local _ .vmem, ⟨0, _⟩ => ⟨S24x216x96, .f32⟩
  | .local _ .vmem, ⟨1, _⟩ => ⟨S24x216x96, .f32⟩
  | .local _ .vmem, ⟨2, _⟩ => ⟨S96x96, .f32⟩
  | .local _ .vmem, ⟨3, _⟩ => ⟨S96x96, .f32⟩
  | .local _ .vmem, ⟨4, _⟩ => ⟨S96x96, .f32⟩
  | .local _ .vmem, ⟨5, _⟩ => ⟨S96x96, .f32⟩
  | .local _ .vmem, ⟨6, _⟩ => ⟨S1x96, .f32⟩
  | .local _ .vmem, ⟨7, _⟩ => ⟨S24x216x96, .f32⟩
  | .local _ .vmem, ⟨8, _⟩ => ⟨S24x216x96, .f32⟩
  | _, _ => ⟨S2x96x72x72x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![144], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S24x216x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S24x216x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2x96x72x72x72_S2x373248x96 : S2x96x72x72x72.ShapeCasts S2x373248x96
  shapeCasts_S2x373248x96_S2x1728x216x96 : S2x373248x96.ShapeCasts S2x1728x216x96
  shapeCasts_S2x1728x216x96_S3456x216x96 : S2x1728x216x96.ShapeCasts S3456x216x96
  shapeCasts_S96_S1x96 : S96.ShapeCasts S1x96
  inb_S24x216x96_S24x216x96_0_0_0 : ∀ a, (![0, 0, 0] : Fin 3 → Nat) a + S24x216x96.size a ≤ S24x216x96.size a
  h_S24x216x96 : 0 < S24x216x96.numel
  shapeCasts_S24x216x96_S24x216x96 : S24x216x96.ShapeCasts S24x216x96
  shapeCasts_S24x216x96_S5184x96 : S24x216x96.ShapeCasts S5184x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  transposes_S96x96_p1_0_S96x96 : S96x96.Transposes [1, 0] S96x96
  shapeCasts_S5184x96_S24x216x96 : S5184x96.ShapeCasts S24x216x96
  reduces_S24x216x216_S24x216 : S24x216x216.Reduces [2] S24x216
  shapeCasts_S24x216_S24x216x1 : S24x216.ShapeCasts S24x216x1
  broadcasts_S24x216x1_S24x216x216 : S24x216x1.Broadcasts S24x216x216
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5184x96 : S1x96.Broadcasts S5184x96
  shapeCasts_S3456x216x96_S2x1728x216x96 : S3456x216x96.ShapeCasts S2x1728x216x96
  transposes_S2x1728x216x96_S2x96x1728x216_0_3_1_2 : S2x1728x216x96.Transposes [0, 3, 1, 2] S2x96x1728x216
  shapeCasts_S2x96x1728x216_S2x96x72x72x72 : S2x96x1728x216.ShapeCasts S2x96x72x72x72
  dot_S5184x96_S96x96_S5184x96_1_0_0_1_n_n_wf : DotDims.WF S5184x96 S96x96 S5184x96 [1] [0] [0] [1] [] []
  dot_S24x216x96_S24x216x96_S24x216x216_2_2_1_1_0_0_wf : DotDims.WF S24x216x96 S24x216x96 S24x216x216 [2] [2] [1] [1] [0] [0]
  dot_S24x216x216_S24x216x96_S24x216x96_2_1_1_2_0_0_wf : DotDims.WF S24x216x216 S24x216x96 S24x216x96 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x216x96.size a ≤ S3456x216x96.size a
  hwx0_0 : ∀ i : grid0.Coords, EltTy.bits .f32 = 32 ∨ (Rect.block (s := S3456x216x96) S24x216x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S24x216x96.size a ≤ S3456x216x96.size a
  hwx0_6 : ∀ i : grid0.Coords, EltTy.bits .f32 = 32 ∨ (Rect.block (s := S3456x216x96) S24x216x96.size (cc0_transform_6 i) (hinb0_6 i)).WholeWords (EltTy.packing .f32)

variable [Facts₀]

def dot_S5184x96_S96x96_S5184x96_1_0_0_1_n_n : DotDims S5184x96 S96x96 S5184x96 where
  lhsContracting := [1]
  rhsContracting := [0]
  lhsNonContracting := [0]
  rhsNonContracting := [1]
  lhsBatch := []
  rhsBatch := []
  wf := dot_S5184x96_S96x96_S5184x96_1_0_0_1_n_n_wf
def dot_S24x216x96_S24x216x96_S24x216x216_2_2_1_1_0_0 : DotDims S24x216x96 S24x216x96 S24x216x216 where
  lhsContracting := [2]
  rhsContracting := [2]
  lhsNonContracting := [1]
  rhsNonContracting := [1]
  lhsBatch := [0]
  rhsBatch := [0]
  wf := dot_S24x216x96_S24x216x96_S24x216x216_2_2_1_1_0_0_wf
def dot_S24x216x216_S24x216x96_S24x216x96_2_1_1_2_0_0 : DotDims S24x216x216 S24x216x96 S24x216x96 where
  lhsContracting := [2]
  rhsContracting := [1]
  lhsNonContracting := [1]
  rhsNonContracting := [2]
  lhsBatch := [0]
  rhsBatch := [0]
  wf := dot_S24x216x216_S24x216x96_S24x216x96_2_1_1_2_0_0_wf

abbrev win0_0 : Pipeline.Window sig grid0 :=
  Pipeline.Window.ofSpec (Memref.whole main_v2) S24x216x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S24x216x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x96x72x72x72 : Shape := ⟨5, ![2, 96, 72, 72, 72]⟩
abbrev S96x96 : Shape := ⟨2, ![96, 96]⟩
abbrev S96 : Shape := ⟨1, ![96]⟩
abbrev S2x373248x96 : Shape := ⟨3, ![2, 373248, 96]⟩
abbrev S2x1728x216x96 : Shape := ⟨4, ![2, 1728, 216, 96]⟩
abbrev S2x1728x216x216 : Shape := ⟨4, ![2, 1728, 216, 216]⟩
abbrev S_ : Shape := ⟨0, ![]⟩
abbrev S2x1728x216 : Shape := ⟨3, ![2, 1728, 216]⟩
abbrev S2x1728x216x1 : Shape := ⟨4, ![2, 1728, 216, 1]⟩
abbrev S1x1x1x96 : Shape := ⟨4, ![1, 1, 1, 96]⟩
abbrev S2x96x1728x216 : Shape := ⟨4, ![2, 96, 1728, 216]⟩

abbrev nBuf : Space → Nat
  | .hbm => 36
  | .vmem => 0
  | .smem => 0
  | _ => 0

abbrev bufTy : (tb : Table) → Fin (tcTables nBuf tb) → BufTy
  | .hbm, ⟨0, _⟩ => ⟨S2x96x72x72x72, .f32⟩
  | .hbm, ⟨1, _⟩ => ⟨S96x96, .f32⟩
  | .hbm, ⟨2, _⟩ => ⟨S96x96, .f32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S2x373248x96, .f32⟩
  | .hbm, ⟨7, _⟩ => ⟨S2x1728x216x96, .f32⟩
  | .hbm, ⟨8, _⟩ => ⟨S2x1728x216x96, .f32⟩
  | .hbm, ⟨9, _⟩ => ⟨S2x1728x216x96, .f32⟩
  | .hbm, ⟨10, _⟩ => ⟨S2x1728x216x96, .f32⟩
  | .hbm, ⟨11, _⟩ => ⟨S2x1728x216x216, .f32⟩
  | .hbm, ⟨12, _⟩ => ⟨S_, .f32⟩
  | .hbm, ⟨13, _⟩ => ⟨S2x1728x216x216, .f32⟩
  | .hbm, ⟨14, _⟩ => ⟨S2x1728x216x216, .f32⟩
  | .hbm, ⟨15, _⟩ => ⟨S_, .f32⟩
  | .hbm, ⟨16, _⟩ => ⟨S2x1728x216, .f32⟩
  | .hbm, ⟨17, _⟩ => ⟨S_, .f32⟩
  | .hbm, ⟨18, _⟩ => ⟨S2x1728x216, .f32⟩
  | .hbm, ⟨19, _⟩ => ⟨S2x1728x216, .f32⟩
  | .hbm, ⟨20, _⟩ => ⟨S2x1728x216x1, .f32⟩
  | .hbm, ⟨21, _⟩ => ⟨S2x1728x216x216, .f32⟩
  | .hbm, ⟨22, _⟩ => ⟨S2x1728x216x216, .f32⟩
  | .hbm, ⟨23, _⟩ => ⟨S2x1728x216x216, .f32⟩
  | .hbm, ⟨24, _⟩ => ⟨S_, .f32⟩
  | .hbm, ⟨25, _⟩ => ⟨S2x1728x216, .f32⟩
  | .hbm, ⟨26, _⟩ => ⟨S2x1728x216x1, .f32⟩
  | .hbm, ⟨27, _⟩ => ⟨S2x1728x216x216, .f32⟩
  | .hbm, ⟨28, _⟩ => ⟨S2x1728x216x216, .f32⟩
  | .hbm, ⟨29, _⟩ => ⟨S2x1728x216x96, .f32⟩
  | .hbm, ⟨30, _⟩ => ⟨S2x1728x216x96, .f32⟩
  | .hbm, ⟨31, _⟩ => ⟨S1x1x1x96, .f32⟩
  | .hbm, ⟨32, _⟩ => ⟨S2x1728x216x96, .f32⟩
  | .hbm, ⟨33, _⟩ => ⟨S2x1728x216x96, .f32⟩
  | .hbm, ⟨34, _⟩ => ⟨S2x96x1728x216, .f32⟩
  | .hbm, ⟨35, _⟩ => ⟨S2x96x72x72x72, .f32⟩
  | _, _ => ⟨S2x96x72x72x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  shapeCasts_S2x96x72x72x72_S2x373248x96 : S2x96x72x72x72.ShapeCasts S2x373248x96
  shapeCasts_S2x373248x96_S2x1728x216x96 : S2x373248x96.ShapeCasts S2x1728x216x96
  bcast_S_S2x1728x216x216 : S_.BroadcastsInDim S2x1728x216x216 (![] : Fin 0 → Fin S2x1728x216x216.rank)
  reducesTo_S2x1728x216x216_S2x1728x216_d3 : S2x1728x216x216.ReducesTo [3] S2x1728x216
  h_S_ : 0 < S_.numel
  bcast_S_S2x1728x216 : S_.BroadcastsInDim S2x1728x216 (![] : Fin 0 → Fin S2x1728x216.rank)
  bcast_S2x1728x216_S2x1728x216x1_0_1_2 : S2x1728x216.BroadcastsInDim S2x1728x216x1 (![0, 1, 2] : Fin 3 → Fin S2x1728x216x1.rank)
  bcast_S2x1728x216x1_S2x1728x216x216_0_1_2_3 : S2x1728x216x1.BroadcastsInDim S2x1728x216x216 (![0, 1, 2, 3] : Fin 4 → Fin S2x1728x216x216.rank)
  bcast_S96_S1x1x1x96_3 : S96.BroadcastsInDim S1x1x1x96 (![3] : Fin 1 → Fin S1x1x1x96.rank)
  bcast_S1x1x1x96_S2x1728x216x96_0_1_2_3 : S1x1x1x96.BroadcastsInDim S2x1728x216x96 (![0, 1, 2, 3] : Fin 4 → Fin S2x1728x216x96.rank)
  transposes_S2x1728x216x96_S2x96x1728x216_0_3_1_2 : S2x1728x216x96.Transposes [0, 3, 1, 2] S2x96x1728x216
  shapeCasts_S2x96x1728x216_S2x96x72x72x72 : S2x96x1728x216.ShapeCasts S2x96x72x72x72
  dot_S2x1728x216x96_S96x96_S2x1728x216x96_3_1_012_0_n_n_wf : DotDims.WF S2x1728x216x96 S96x96 S2x1728x216x96 [3] [1] [0, 1, 2] [0] [] []
  dot_S2x1728x216x96_S2x1728x216x96_S2x1728x216x216_3_3_2_2_01_01_wf : DotDims.WF S2x1728x216x96 S2x1728x216x96 S2x1728x216x216 [3] [3] [2] [2] [0, 1] [0, 1]
  dot_S2x1728x216x216_S2x1728x216x96_S2x1728x216x96_3_2_2_3_01_01_wf : DotDims.WF S2x1728x216x216 S2x1728x216x96 S2x1728x216x96 [3] [2] [2] [3] [0, 1] [0, 1]

variable [Facts₀]

def dot_S2x1728x216x96_S96x96_S2x1728x216x96_3_1_012_0_n_n : DotDims S2x1728x216x96 S96x96 S2x1728x216x96 where
  lhsContracting := [3]
  rhsContracting := [1]
  lhsNonContracting := [0, 1, 2]
  rhsNonContracting := [0]
  lhsBatch := []
  rhsBatch := []
  wf := dot_S2x1728x216x96_S96x96_S2x1728x216x96_3_1_012_0_n_n_wf
def dot_S2x1728x216x96_S2x1728x216x96_S2x1728x216x216_3_3_2_2_01_01 : DotDims S2x1728x216x96 S2x1728x216x96 S2x1728x216x216 where
  lhsContracting := [3]
  rhsContracting := [3]
  lhsNonContracting := [2]
  rhsNonContracting := [2]
  lhsBatch := [0, 1]
  rhsBatch := [0, 1]
  wf := dot_S2x1728x216x96_S2x1728x216x96_S2x1728x216x216_3_3_2_2_01_01_wf
def dot_S2x1728x216x216_S2x1728x216x96_S2x1728x216x96_3_2_2_3_01_01 : DotDims S2x1728x216x216 S2x1728x216x96 S2x1728x216x96 where
  lhsContracting := [3]
  rhsContracting := [2]
  lhsNonContracting := [2]
  rhsNonContracting := [3]
  lhsBatch := [0, 1]
  rhsBatch := [0, 1]
  wf := dot_S2x1728x216x216_S2x1728x216x96_S2x1728x216x96_3_2_2_3_01_01_wf

class Facts : Prop extends Facts₀ where

variable [Facts]
-- ==== Proof.Attn.lean ====
/-
  One window of self-attention, on the extended reals.

  A window is 216 tokens of 96 channels. From the token matrix X and four 96×96 weight matrices the window's
  result is

      q = X·Wqᵀ,  k = X·Wkᵀ,  v = X·Wvᵀ                         (three projections, each a sum over 96 channels)
      s(n, m) = (Σ_d q(n, d)·k(m, d)) · scale                     (scaled scores)
      p(n, m) = exp(s(n, m) − max_m' s(n, m')) / Σ_m' exp(s(n, m') − max_m'' s(n, m''))   (a row softmax)
      o = p·v,   y(n, c) = Σ_d o(n, d)·Wp(c, d) + b(c)            (mixing, then the output projection and bias)

  Both programs compute exactly this for every window; they differ only in how the 3456 windows are laid out and
  tiled. The definitions below fix the order of every operation (the row maximum is taken from −∞ and then once
  more against −∞; the denominator is the plain sum of the exponentials), so that each program's value at an index
  is this function of its own window's slice, with no algebra beyond re-indexing the sums.
-/
import Idealize.ShloMosaic.PureOps.Ideal

noncomputable section

open scoped BigOperators

namespace Cert.Attn

open Idealize.ShloMosaic

/-- The score scale 12^(−1/2) as the single-precision number both programs carry. -/
def scale : EReal := Ideal.ofBits .f32 0x3E93CD3A#32

/-- −∞, the value the row maximum starts from. -/
def negInf : EReal := Ideal.ofBits .f32 0xFF800000#32

/-- A projection X·Wᵀ: row n of X against row d of W. -/
def proj (X : Fin 216 → Fin 96 → EReal) (W : Fin 96 → Fin 96 → EReal) (n : Fin 216) (d : Fin 96) : EReal :=
  ∑ c : Fin 96, X n c * W d c

/-- The scaled score of query token n against key token m. -/
def score (Q K : Fin 216 → Fin 96 → EReal) (n m : Fin 216) : EReal :=
  (∑ d : Fin 96, Q n d * K m d) * scale

/-- The maximum of row n of the scores, folded from −∞ and compared with −∞ once more. -/
def rowMax (S : Fin 216 → Fin 216 → EReal) (n : Fin 216) : EReal :=
  max negInf ((Finset.univ : Finset (Fin 216)).fold max negInf fun m => S n m)

/-- The shifted exponential of a score. -/
def expo (S : Fin 216 → Fin 216 → EReal) (n m : Fin 216) : EReal :=
  Ideal.exp (S n m - rowMax S n)

/-- The softmax weight: the shifted exponential over the row's sum of them. -/
def prob (S : Fin 216 → Fin 216 → EReal) (n m : Fin 216) : EReal :=
  Ideal.div (expo S n m) (∑ m' : Fin 216, expo S n m')

/-- The weights applied to the values. -/
def mix (P : Fin 216 → Fin 216 → EReal) (V : Fin 216 → Fin 96 → EReal) (n : Fin 216) (d : Fin 96) : EReal :=
  ∑ m : Fin 216, P n m * V m d

/-- The whole window: tokens X, weights Wq Wk Wv Wp and bias b give the result at token n, channel c. -/
def window (X : Fin 216 → Fin 96 → EReal) (Wq Wk Wv Wp : Fin 96 → Fin 96 → EReal) (b : Fin 96 → EReal)
    (n : Fin 216) (c : Fin 96) : EReal :=
  (∑ d : Fin 96, mix (prob (score (proj X Wq) (proj X Wk))) (proj X Wv) n d * Wp c d) + b c

end Cert.Attn

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.KernelWindow.lean ====
/-
  The kernel body's stored value, read at one entry of its block, is one window of attention.

  A block holds 24 windows. The body flattens the block to 5184 rows of 96 channels, projects the rows with the
  transposed weight matrices, regroups them into the 24 windows, forms each window's scaled scores, takes the row
  softmax, mixes the values, flattens again for the output projection, adds the bias row and regroups. Read at
  window g, token n, channel c, all of this is `Attn.window` of window g's 216×96 slice of the block.
-/
import proofs.«149451_j62474594287826_1_alg».proof.Proof.Gen.KernelIdeal.Skeleton
import proofs.«149451_j62474594287826_1_alg».proof.Proof.Attn
import proofs.«149451_j62474594287826_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelWindow

open Idealize.ShloMosaic Idealize.ShloMosaic.ValueIdx Cert.KernelIdeal Cert.KernelIdeal.Gen

/-! ## Rows of the flattened block -/

/-- Row g·216 + n of the 5184 flattened rows: token n of window g. -/
def row (g : Fin 24) (n : Fin 216) : Fin 5184 := ⟨g.val * 216 + n.val, by omega⟩

/-- The block flattened to 5184 rows, read at row g·216 + n, is the block at window g, token n. -/
theorem flatten_apply {α : Type} (v : S24x216x96.Idx → α) (h : S24x216x96.ShapeCasts S5184x96)
    (g : Fin 24) (n : Fin 216) (c : Fin 96) :
    shapeCast S5184x96 v h (ix2 (row g n) c) = v (ix3 g n c) :=
  shapeCast_apply v h _ _ (by
    rw [Shape.rowMajor_val_three, Shape.rowMajor_val_two]
    show (g.val * 216 + n.val) * 96 + c.val = (g.val * 216 + n.val) * 96 + c.val
    rfl)

/-- The 5184 rows regrouped into 24 windows, read at window g, token n, are row g·216 + n. -/
theorem regroup_apply {α : Type} (u : S5184x96.Idx → α) (h : S5184x96.ShapeCasts S24x216x96)
    (g : Fin 24) (n : Fin 216) (c : Fin 96) :
    shapeCast S24x216x96 u h (ix3 g n c) = u (ix2 (row g n) c) :=
  shapeCast_apply u h _ _ (by
    rw [Shape.rowMajor_val_three, Shape.rowMajor_val_two]
    show (g.val * 216 + n.val) * 96 + c.val = (g.val * 216 + n.val) * 96 + c.val
    rfl)

/-- The flattened block, its float format changed (the identity on the extended reals): the block itself at
    window g, token n. -/
theorem pay2_apply (x0 : Vec Ideal S24x216x96 .f32) (g : Fin 24) (n : Fin 216) (k : Fin 96) :
    k0_pay2 (F := Ideal) x0 (ix2 (row g n) k) = x0 (ix3 g n k) := by
  unfold k0_pay2
  rw [shapeCast_self]
  exact flatten_apply x0 _ g n k

/-! ## The plain products: 5184 rows against a 96×96 matrix -/

/-- The left operand's index keeps the output's row. -/
theorem plain_lhs_row (j : S5184x96.Idx) (q : dot_S5184x96_S96x96_S5184x96_1_0_0_1_n_n.contr.Idx) :
    (dot_S5184x96_S96x96_S5184x96_1_0_0_1_n_n.lhsIdx j q 0).val = (j 0).val := by
  unfold DotDims.lhsIdx
  rw [dif_neg (show ¬(0 : Fin S5184x96.rank) ∈ dot_S5184x96_S96x96_S5184x96_1_0_0_1_n_n.lhsBatch by decide),
    dif_pos (show (0 : Fin S5184x96.rank) ∈ dot_S5184x96_S96x96_S5184x96_1_0_0_1_n_n.lhsNonContracting by decide)]
  rfl

/-- The right operand's index keeps the output's column. -/
theorem plain_rhs_col (j : S5184x96.Idx) (q : dot_S5184x96_S96x96_S5184x96_1_0_0_1_n_n.contr.Idx) :
    (dot_S5184x96_S96x96_S5184x96_1_0_0_1_n_n.rhsIdx j q 1).val = (j 1).val := by
  unfold DotDims.rhsIdx
  rw [dif_neg (show ¬(1 : Fin S96x96.rank) ∈ dot_S5184x96_S96x96_S5184x96_1_0_0_1_n_n.rhsBatch by decide),
    dif_pos (show (1 : Fin S96x96.rank) ∈ dot_S5184x96_S96x96_S5184x96_1_0_0_1_n_n.rhsNonContracting by decide)]
  rfl

/-- Rows times a matrix, into the zero accumulator: at row p, column q the sum over the 96 channels. -/
theorem plain_apply {φ₁ φ₂ : FTy} (l : FVec Ideal S5184x96 φ₁) (r : FVec Ideal S96x96 φ₂) (p : Fin 5184) (q : Fin 96) :
    matmul dot_S5184x96_S96x96_S5184x96_1_0_0_1_n_n none l r (constant S5184x96 .f32 0x00000000#32) (ix2 p q)
      = ∑ k : Fin 96, l (ix2 p k) * r (ix2 k q) :=
  Cert.LibPlainDot.matmul_zero_apply dot_S5184x96_S96x96_S5184x96_1_0_0_1_n_n rfl rfl plain_lhs_row plain_rhs_col rfl rfl
    none l r p q

/-- Rows times a transposed weight matrix, regrouped into windows: a projection. At window g, token n, channel d
    it is the sum over the channels c of the row's entry at c times the weight at (d, c). -/
theorem proj_apply (l : FVec Ideal S5184x96 .bf16) (W : FVec Ideal S96x96 .bf16)
    (hT : S96x96.Transposes [1, 0] S96x96) (hC : S5184x96.ShapeCasts S24x216x96)
    (g : Fin 24) (n : Fin 216) (d : Fin 96) :
    shapeCast S24x216x96
        (matmul dot_S5184x96_S96x96_S5184x96_1_0_0_1_n_n none l (transpose S96x96 [1, 0] W hT)
          (constant S5184x96 .f32 0x00000000#32)) hC (ix3 g n d)
      = ∑ k : Fin 96, l (ix2 (row g n) k) * W (ix2 d k) := by
  rw [regroup_apply, plain_apply]
  refine Finset.sum_congr rfl fun k _ => ?_
  rw [transpose_ix2_apply]

/-! ## The batched products: one per window -/

/-- The operand indices of the score product at output (g, n, m) and channel k: the left is (g, n, k), the right
    (g, m, k). Coordinate by coordinate: -/
theorem score_lhs_win (j : S24x216x216.Idx) (q : dot_S24x216x96_S24x216x96_S24x216x216_2_2_1_1_0_0.contr.Idx) :
    (dot_S24x216x96_S24x216x96_S24x216x216_2_2_1_1_0_0.lhsIdx j q 0).val = (j 0).val := by
  unfold DotDims.lhsIdx
  rw [dif_pos (show (0 : Fin S24x216x96.rank) ∈ dot_S24x216x96_S24x216x96_S24x216x216_2_2_1_1_0_0.lhsBatch by decide)]
  rfl

theorem score_lhs_tok (j : S24x216x216.Idx) (q : dot_S24x216x96_S24x216x96_S24x216x216_2_2_1_1_0_0.contr.Idx) :
    (dot_S24x216x96_S24x216x96_S24x216x216_2_2_1_1_0_0.lhsIdx j q 1).val = (j 1).val := by
  unfold DotDims.lhsIdx
  rw [dif_neg (show ¬(1 : Fin S24x216x96.rank) ∈ dot_S24x216x96_S24x216x96_S24x216x216_2_2_1_1_0_0.lhsBatch by decide),
    dif_pos (show (1 : Fin S24x216x96.rank) ∈ dot_S24x216x96_S24x216x96_S24x216x216_2_2_1_1_0_0.lhsNonContracting by decide)]
  rfl

theorem score_lhs_chan (j : S24x216x216.Idx) (q : dot_S24x216x96_S24x216x96_S24x216x216_2_2_1_1_0_0.contr.Idx) :
    (dot_S24x216x96_S24x216x96_S24x216x216_2_2_1_1_0_0.lhsIdx j q 2).val = (q ⟨0, by decide⟩).val :=
  dot_S24x216x96_S24x216x96_S24x216x216_2_2_1_1_0_0.lhsIdx_val_of_single rfl j q

theorem score_rhs_win (j : S24x216x216.Idx) (q : dot_S24x216x96_S24x216x96_S24x216x216_2_2_1_1_0_0.contr.Idx) :
    (dot_S24x216x96_S24x216x96_S24x216x216_2_2_1_1_0_0.rhsIdx j q 0).val = (j 0).val := by
  unfold DotDims.rhsIdx
  rw [dif_pos (show (0 : Fin S24x216x96.rank) ∈ dot_S24x216x96_S24x216x96_S24x216x216_2_2_1_1_0_0.rhsBatch by decide)]
  rfl

theorem score_rhs_tok (j : S24x216x216.Idx) (q : dot_S24x216x96_S24x216x96_S24x216x216_2_2_1_1_0_0.contr.Idx) :
    (dot_S24x216x96_S24x216x96_S24x216x216_2_2_1_1_0_0.rhsIdx j q 1).val = (j 2).val := by
  unfold DotDims.rhsIdx
  rw [dif_neg (show ¬(1 : Fin S24x216x96.rank) ∈ dot_S24x216x96_S24x216x96_S24x216x216_2_2_1_1_0_0.rhsBatch by decide),
    dif_pos (show (1 : Fin S24x216x96.rank) ∈ dot_S24x216x96_S24x216x96_S24x216x216_2_2_1_1_0_0.rhsNonContracting by decide)]
  rfl

theorem score_rhs_chan (j : S24x216x216.Idx) (q : dot_S24x216x96_S24x216x96_S24x216x216_2_2_1_1_0_0.contr.Idx) :
    (dot_S24x216x96_S24x216x96_S24x216x216_2_2_1_1_0_0.rhsIdx j q 2).val = (q ⟨0, by decide⟩).val :=
  dot_S24x216x96_S24x216x96_S24x216x216_2_2_1_1_0_0.rhsIdx_val_of_single rfl j q

/-- Queries against keys, window by window, into the zero accumulator: at window g, query token n, key token m the
    sum over the 96 channels. -/
theorem scores_apply {φ₁ φ₂ : FTy} (a : FVec Ideal S24x216x96 φ₁) (b : FVec Ideal S24x216x96 φ₂)
    (g : Fin 24) (n m : Fin 216) :
    matmul dot_S24x216x96_S24x216x96_S24x216x216_2_2_1_1_0_0 none a b (constant S24x216x216 .f32 0x00000000#32) (ix3 g n m)
      = ∑ k : Fin 96, a (ix3 g n k) * b (ix3 g m k) := by
  refine (Ideal.matmul_constant_zero_apply _ none a b (ix3 g n m)).trans ?_
  rw [← Equiv.sum_comp (contrEquiv1 dot_S24x216x96_S24x216x96_S24x216x216_2_2_1_1_0_0 96 rfl rfl).symm]
  refine Finset.sum_congr rfl fun k _ => ?_
  have hk := contrEquiv1_symm_val dot_S24x216x96_S24x216x96_S24x216x216_2_2_1_1_0_0 96 rfl rfl k
  have el : dot_S24x216x96_S24x216x96_S24x216x216_2_2_1_1_0_0.lhsIdx (ix3 g n m)
      ((contrEquiv1 dot_S24x216x96_S24x216x96_S24x216x216_2_2_1_1_0_0 96 rfl rfl).symm k) = ix3 g n k :=
    funext fun ax => Fin.ext (by
      match ax with
      | ⟨0, _⟩ => exact score_lhs_win _ _
      | ⟨1, _⟩ => exact score_lhs_tok _ _
      | ⟨2, _⟩ => exact (score_lhs_chan _ _).trans hk)
  have er : dot_S24x216x96_S24x216x96_S24x216x216_2_2_1_1_0_0.rhsIdx (ix3 g n m)
      ((contrEquiv1 dot_S24x216x96_S24x216x96_S24x216x216_2_2_1_1_0_0 96 rfl rfl).symm k) = ix3 g m k :=
    funext fun ax => Fin.ext (by
      match ax with
      | ⟨0, _⟩ => exact score_rhs_win _ _
      | ⟨1, _⟩ => exact score_rhs_tok _ _
      | ⟨2, _⟩ => exact (score_rhs_chan _ _).trans hk)
  rw [el, er]

/-- The operand indices of the mixing product at output (g, n, d) and key token m: the left is (g, n, m), the
    right (g, m, d). Coordinate by coordinate: -/
theorem mix_lhs_win (j : S24x216x96.Idx) (q : dot_S24x216x216_S24x216x96_S24x216x96_2_1_1_2_0_0.contr.Idx) :
    (dot_S24x216x216_S24x216x96_S24x216x96_2_1_1_2_0_0.lhsIdx j q 0).val = (j 0).val := by
  unfold DotDims.lhsIdx
  rw [dif_pos (show (0 : Fin S24x216x216.rank) ∈ dot_S24x216x216_S24x216x96_S24x216x96_2_1_1_2_0_0.lhsBatch by decide)]
  rfl

theorem mix_lhs_tok (j : S24x216x96.Idx) (q : dot_S24x216x216_S24x216x96_S24x216x96_2_1_1_2_0_0.contr.Idx) :
    (dot_S24x216x216_S24x216x96_S24x216x96_2_1_1_2_0_0.lhsIdx j q 1).val = (j 1).val := by
  unfold DotDims.lhsIdx
  rw [dif_neg (show ¬(1 : Fin S24x216x216.rank) ∈ dot_S24x216x216_S24x216x96_S24x216x96_2_1_1_2_0_0.lhsBatch by decide),
    dif_pos (show (1 : Fin S24x216x216.rank) ∈ dot_S24x216x216_S24x216x96_S24x216x96_2_1_1_2_0_0.lhsNonContracting by decide)]
  rfl

theorem mix_lhs_key (j : S24x216x96.Idx) (q : dot_S24x216x216_S24x216x96_S24x216x96_2_1_1_2_0_0.contr.Idx) :
    (dot_S24x216x216_S24x216x96_S24x216x96_2_1_1_2_0_0.lhsIdx j q 2).val = (q ⟨0, by decide⟩).val :=
  dot_S24x216x216_S24x216x96_S24x216x96_2_1_1_2_0_0.lhsIdx_val_of_single rfl j q

theorem mix_rhs_win (j : S24x216x96.Idx) (q : dot_S24x216x216_S24x216x96_S24x216x96_2_1_1_2_0_0.contr.Idx) :
    (dot_S24x216x216_S24x216x96_S24x216x96_2_1_1_2_0_0.rhsIdx j q 0).val = (j 0).val := by
  unfold DotDims.rhsIdx
  rw [dif_pos (show (0 : Fin S24x216x96.rank) ∈ dot_S24x216x216_S24x216x96_S24x216x96_2_1_1_2_0_0.rhsBatch by decide)]
  rfl

theorem mix_rhs_key (j : S24x216x96.Idx) (q : dot_S24x216x216_S24x216x96_S24x216x96_2_1_1_2_0_0.contr.Idx) :
    (dot_S24x216x216_S24x216x96_S24x216x96_2_1_1_2_0_0.rhsIdx j q 1).val = (q ⟨0, by decide⟩).val :=
  dot_S24x216x216_S24x216x96_S24x216x96_2_1_1_2_0_0.rhsIdx_val_of_single rfl j q

theorem mix_rhs_chan (j : S24x216x96.Idx) (q : dot_S24x216x216_S24x216x96_S24x216x96_2_1_1_2_0_0.contr.Idx) :
    (dot_S24x216x216_S24x216x96_S24x216x96_2_1_1_2_0_0.rhsIdx j q 2).val = (j 2).val := by
  unfold DotDims.rhsIdx
  rw [dif_neg (show ¬(2 : Fin S24x216x96.rank) ∈ dot_S24x216x216_S24x216x96_S24x216x96_2_1_1_2_0_0.rhsBatch by decide),
    dif_pos (show (2 : Fin S24x216x96.rank) ∈ dot_S24x216x216_S24x216x96_S24x216x96_2_1_1_2_0_0.rhsNonContracting by decide)]
  rfl

/-- Weights against values, window by window, into the zero accumulator: at window g, token n, channel d the sum
    over the 216 key tokens. -/
theorem mixed_apply {φ₁ φ₂ : FTy} (p : FVec Ideal S24x216x216 φ₁) (v : FVec Ideal S24x216x96 φ₂)
    (g : Fin 24) (n : Fin 216) (d : Fin 96) :
    matmul dot_S24x216x216_S24x216x96_S24x216x96_2_1_1_2_0_0 none p v (constant S24x216x96 .f32 0x00000000#32) (ix3 g n d)
      = ∑ m : Fin 216, p (ix3 g n m) * v (ix3 g m d) := by
  refine (Ideal.matmul_constant_zero_apply _ none p v (ix3 g n d)).trans ?_
  rw [← Equiv.sum_comp (contrEquiv1 dot_S24x216x216_S24x216x96_S24x216x96_2_1_1_2_0_0 216 rfl rfl).symm]
  refine Finset.sum_congr rfl fun m _ => ?_
  have hm := contrEquiv1_symm_val dot_S24x216x216_S24x216x96_S24x216x96_2_1_1_2_0_0 216 rfl rfl m
  have el : dot_S24x216x216_S24x216x96_S24x216x96_2_1_1_2_0_0.lhsIdx (ix3 g n d)
      ((contrEquiv1 dot_S24x216x216_S24x216x96_S24x216x96_2_1_1_2_0_0 216 rfl rfl).symm m) = ix3 g n m :=
    funext fun ax => Fin.ext (by
      match ax with
      | ⟨0, _⟩ => exact mix_lhs_win _ _
      | ⟨1, _⟩ => exact mix_lhs_tok _ _
      | ⟨2, _⟩ => exact (mix_lhs_key _ _).trans hm)
  have er : dot_S24x216x216_S24x216x96_S24x216x96_2_1_1_2_0_0.rhsIdx (ix3 g n d)
      ((contrEquiv1 dot_S24x216x216_S24x216x96_S24x216x96_2_1_1_2_0_0 216 rfl rfl).symm m) = ix3 g m d :=
    funext fun ax => Fin.ext (by
      match ax with
      | ⟨0, _⟩ => exact mix_rhs_win _ _
      | ⟨1, _⟩ => exact (mix_rhs_key _ _).trans hm
      | ⟨2, _⟩ => exact mix_rhs_chan _ _)
  rw [el, er]

/-! ## Reductions along a row of scores, and a row's value spread back along it -/

/-- A row of the 24×216×216 array: the reduced index (g, n) with the coordinate m put back is (g, n, m). -/
theorem lift_row (h : S24x216x216.Reduces [2] S24x216) (g : Fin 24) (n m : Fin 216) :
    h.lift (ix2 g n) m = ix3 g n m :=
  funext fun ax => Fin.ext (by
    match ax with
    | ⟨0, _⟩ => rfl
    | ⟨1, _⟩ => rfl
    | ⟨2, _⟩ => rfl)

/-- The maximum along a row, from −∞: the fold of max over the row's 216 entries. -/
theorem rowMax_apply (v : FVec Ideal S24x216x216 .f32) (h : S24x216x216.Reduces [2] S24x216) (hφ : FKind.Formats .f32)
    (hacc : (0xFF800000#32 : BitVec 32) = 0xFF800000#32) (g : Fin 24) (n : Fin 216) :
    multiReduction .maximumf [2] S24x216 v 0xFF800000#32 h hφ hacc (ix2 g n)
      = (Finset.univ : Finset (Fin 216)).fold max (Ideal.ofBits .f32 0xFF800000#32) fun m => v (ix3 g n m) := by
  refine (Ideal.multiReduction_maximumf_single v _ h hφ hacc (ix2 g n)).trans ?_
  refine congrArg (fun f : Fin 216 → EReal => (Finset.univ : Finset (Fin 216)).fold max (Ideal.ofBits .f32 0xFF800000#32) f)
    (funext fun m => congrArg v (lift_row h g n m))

/-- The sum along a row: the sum of the row's 216 entries. -/
theorem rowSum_apply (e : FVec Ideal S24x216x216 .f32) (h : S24x216x216.Reduces [2] S24x216) (hφ : FKind.Formats .f32)
    (hacc : (0x00000000#32 : BitVec 32) = 0x00000000#32) (g : Fin 24) (n : Fin 216) :
    multiReduction .add [2] S24x216 e 0x00000000#32 h hφ hacc (ix2 g n) = ∑ m : Fin 216, e (ix3 g n m) := by
  refine (Ideal.multiReduction_add_single e _ h hφ hacc (ix2 g n)).trans ?_
  exact Finset.sum_congr rfl fun m _ => congrArg e (lift_row h g n m)

/-- A value per row, given a unit last axis and spread along the row: at (g, n, m) it is the row's value at (g, n). -/
theorem keepdims_apply {α : Type} (r : S24x216.Idx → α) (hc : S24x216.ShapeCasts S24x216x1)
    (hb : S24x216x1.Broadcasts S24x216x216) (g : Fin 24) (n m : Fin 216) :
    broadcastTo S24x216x216 (shapeCast S24x216x1 r hc) hb (ix3 g n m) = r (ix2 g n) := by
  refine (broadcastTo_apply _ hb (ix3 g n m) (ix3 g n (0 : Fin 1)) fun ax => ?_).trans ?_
  · match ax with
    | ⟨0, _⟩ => rfl
    | ⟨1, _⟩ => rfl
    | ⟨2, _⟩ => rfl
  · exact shapeCast_apply r hc _ _ (by
      rw [Shape.rowMajor_val_two, Shape.rowMajor_val_three]
      show g.val * 216 + n.val = (g.val * 216 + n.val) * 1 + 0
      omega)

/-- The bias row spread over the 5184 rows: at row p, channel c it is the bias at c. -/
theorem bias_apply {α : Type} (b : S1x96.Idx → α) (hc : S1x96.ShapeCasts S1x96) (hb : S1x96.Broadcasts S5184x96)
    (p : Fin 5184) (c : Fin 96) :
    broadcastTo S5184x96 (shapeCast S1x96 b hc) hb (ix2 p c) = b (ix2 (0 : Fin 1) c) := by
  rw [shapeCast_self]
  exact broadcastTo_1b_ab_apply b hb p c

/-! ## The row softmax -/

/-- The exponential of a vector, read at an index. -/
theorem exp_apply {s : Shape} {φ : FTy} (a : FVec Ideal s φ) (i : s.Idx) : exp a i = Ideal.exp (a i) := rfl

/-- A score minus its row's maximum (taken from −∞, then once more against −∞), exponentiated: the shifted
    exponential of the window's scores. -/
theorem shifted_apply (s : FVec Ideal S24x216x216 .f32) (hr : S24x216x216.Reduces [2] S24x216) (hφ : FKind.Formats .f32)
    (hmax : @Eq (BitVec (FTy.bits .f32)) 0xFF800000#32 0xFF800000#32)
    (hc : S24x216.ShapeCasts S24x216x1) (hb : S24x216x1.Broadcasts S24x216x216) (g : Fin 24) (n m : Fin 216) :
    exp (subf s (broadcastTo S24x216x216 (shapeCast S24x216x1
        (maximumf (broadcast S24x216 (FloatOps.ofBits .f32 0xFF800000#32))
          (multiReduction .maximumf [2] S24x216 s 0xFF800000#32 hr hφ hmax)) hc) hb)) (ix3 g n m)
      = Cert.Attn.expo (fun n' m' => s (ix3 g n' m')) n m := by
  rw [exp_apply, subf_apply, keepdims_apply, maximumf_apply, broadcast_apply, rowMax_apply]
  rfl

/-- An array of exponentials over its row sums, the sums spread back along the rows. -/
theorem normalized_apply (e : FVec Ideal S24x216x216 .f32) (hr : S24x216x216.Reduces [2] S24x216) (hφ : FKind.Formats .f32)
    (hadd : @Eq (BitVec (FTy.bits .f32)) 0x00000000#32 0x00000000#32)
    (hc : S24x216.ShapeCasts S24x216x1) (hb : S24x216x1.Broadcasts S24x216x216) (g : Fin 24) (n m : Fin 216) :
    divf e (broadcastTo S24x216x216 (shapeCast S24x216x1
        (multiReduction .add [2] S24x216 e 0x00000000#32 hr hφ hadd) hc) hb) (ix3 g n m)
      = Ideal.div (e (ix3 g n m)) (∑ m' : Fin 216, e (ix3 g n m')) := by
  rw [divf_apply, keepdims_apply, rowSum_apply]

/-! ## The payloads at an index -/

/-- A block of projected rows: at window g, token m, channel d the projection of the window's tokens by the weights. -/
theorem projected_apply (x0 : Vec Ideal S24x216x96 .f32) (W : Vec Ideal S96x96 .f32)
    (hlt : FTy.bits .bf16 < FTy.bits .f32) (hT : S96x96.Transposes [1, 0] S96x96) (hC : S5184x96.ShapeCasts S24x216x96)
    (g : Fin 24) (m : Fin 216) (d : Fin 96) :
    truncf .bf16 (shapeCast S24x216x96
        (matmul dot_S5184x96_S96x96_S5184x96_1_0_0_1_n_n none (k0_pay2 x0) (transpose S96x96 [1, 0] (truncf .bf16 W hlt) hT)
          (constant S5184x96 .f32 0x00000000#32)) hC) hlt (ix3 g m d)
      = Cert.Attn.proj (fun n' c' => x0 (ix3 g n' c')) (fun d' c' => W (ix2 d' c')) m d := by
  rw [truncf_apply, proj_apply]
  unfold Cert.Attn.proj
  refine Finset.sum_congr rfl fun k _ => ?_
  rw [pay2_apply]
  rfl

/-- The values projected. -/
theorem pay4_apply (x0 : Vec Ideal S24x216x96 .f32) (x3 : Vec Ideal S96x96 .f32) (g : Fin 24) (m : Fin 216) (d : Fin 96) :
    k0_pay4 (F := Ideal) x0 x3 (ix3 g m d)
      = Cert.Attn.proj (fun n' c' => x0 (ix3 g n' c')) (fun d' c' => x3 (ix2 d' c')) m d := by
  unfold k0_pay4
  exact projected_apply x0 x3 _ _ _ g m d

/-- The softmax weights of the window's scaled scores. -/
theorem pay5_apply (x0 : Vec Ideal S24x216x96 .f32) (x1 x2 : Vec Ideal S96x96 .f32) (g : Fin 24) (n m : Fin 216) :
    k0_pay5 (F := Ideal) x0 x1 x2 (ix3 g n m)
      = Cert.Attn.prob (Cert.Attn.score
          (Cert.Attn.proj (fun n' c' => x0 (ix3 g n' c')) (fun d' c' => x1 (ix2 d' c')))
          (Cert.Attn.proj (fun n' c' => x0 (ix3 g n' c')) (fun d' c' => x2 (ix2 d' c')))) n m := by
  unfold k0_pay5
  rw [truncf_apply]
  refine (normalized_apply _ _ _ _ _ _ g n m).trans ?_
  refine (congrArg₂ Ideal.div (shifted_apply _ _ _ _ _ _ g n m)
    (Finset.sum_congr rfl fun m' _ => shifted_apply _ _ _ _ _ _ g n m')).trans ?_
  show Cert.Attn.prob _ n m = _
  refine congrArg (fun S => Cert.Attn.prob S n m) (funext fun n' => funext fun m' => ?_)
  rw [mulf_apply, broadcast_apply, scores_apply]
  unfold Cert.Attn.score
  refine congrArg₂ (· * ·) (Finset.sum_congr rfl fun k _ => ?_) rfl
  rw [projected_apply, projected_apply]

/-- The stored value from its parts: the mixed values against the output weights, plus the bias. -/
theorem pay1_apply (v11 : FVec Ideal S96x96 .bf16) (v23 : FVec Ideal S24x216x96 .bf16) (v38 : FVec Ideal S24x216x216 .bf16)
    (v44 : Vec Ideal S1x96 .f32) (g : Fin 24) (n : Fin 216) (c : Fin 96) :
    k0_pay1 (F := Ideal) v11 v23 v38 (constant S24x216x96 .f32 0x00000000#32) v44 (ix3 g n c)
      = (∑ d : Fin 96, (∑ m : Fin 216, v38 (ix3 g n m) * v23 (ix3 g m d)) * v11 (ix2 c d)) + v44 (ix2 (0 : Fin 1) c) := by
  unfold k0_pay1
  rw [regroup_apply, addf_apply, bias_apply, plain_apply]
  congr 1
  refine Finset.sum_congr rfl fun d _ => ?_
  rw [transpose_ix2_apply, truncf_apply, flatten_apply, mixed_apply]

/-- The stored value at window g, token n, channel c of the block. -/
theorem payload_apply (x0 : Vec Ideal S24x216x96 .f32) (x1 x2 x3 x4 : Vec Ideal S96x96 .f32) (x5 : Vec Ideal S1x96 .f32)
    (g : Fin 24) (n : Fin 216) (c : Fin 96) :
    k0_pay1 (F := Ideal) (k0_pay3 x4) (k0_pay4 x0 x3) (k0_pay5 x0 x1 x2) (constant S24x216x96 .f32 0x00000000#32) x5 (ix3 g n c)
      = Cert.Attn.window (fun n' c' => x0 (ix3 g n' c')) (fun d c' => x1 (ix2 d c')) (fun d c' => x2 (ix2 d c'))
          (fun d c' => x3 (ix2 d c')) (fun c' d => x4 (ix2 c' d)) (fun c' => x5 (ix2 (0 : Fin 1) c')) n c := by
  rw [pay1_apply]
  unfold Cert.Attn.window Cert.Attn.mix
  refine congrArg₂ (· + ·) (Finset.sum_congr rfl fun d _ => ?_) rfl
  refine congrArg₂ (· * ·) (Finset.sum_congr rfl fun m _ => ?_) rfl
  rw [pay5_apply, pay4_apply]

end Cert.KernelWindow

end
-- ==== Proof.Blocks.lean ====
/-
  From the kernel's blocks to its whole result array.

  The grid has 144 points; point t works on windows 24·t … 24·t + 23 of the 3456 windows: its input block is those
  24 windows of the regrouped input, the four weight matrices and the bias row are the same whole arrays at every
  point, and its output block is those 24 windows of the result. Each output block is, entry by entry, one window of
  attention (the body's stored value read at an index), and the 144 blocks tile the result array, so the array after
  the run is `result`: at window w, token n, channel c, `Attn.window` of window w of the regrouped input.
-/
import proofs.«149451_j62474594287826_1_alg».proof.Proof.Gen.KernelIdeal.Frame
import proofs.«149451_j62474594287826_1_alg».proof.Proof.KernelWindow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and output blocks move with the point along the window axis
    only; the weights and the bias stay at block 0. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The input block at point t, read at window g, token n, channel k, is the regrouped input at window 24·t + g. -/
theorem iblk0_apply (c : Dev nD) (t : Fin cfg0.N) (g : Fin 24) (n : Fin 216) (k : Fin 96) (w : Fin 3456)
    (hw : w.val = 24 * t.val + g.val) :
    (iblk m c 0 t : Vec Ideal S24x216x96 .f32) (ix3 g n k) = (V m c main_v2 : S3456x216x96.Idx → EReal) (ix3 w n k) := by
  obtain ⟨e0, e1, e2, -⟩ := idx_facts t
  unfold iblk
  rw [View.read_apply]
  show V m c main_v2 _ = V m c main_v2 _
  congr 1
  funext a
  apply Fin.ext
  match a with
  | ⟨0, _⟩ => show win0_0.index t (0 : Fin 3) * 24 + 1 * g.val = w.val; rw [e0, hw]; omega
  | ⟨1, _⟩ => show win0_0.index t (1 : Fin 3) * 216 + 1 * n.val = n.val; rw [e1]; omega
  | ⟨2, _⟩ => show win0_0.index t (2 : Fin 3) * 96 + 1 * k.val = k.val; rw [e2]; omega

/-- A weight block is the whole weight matrix at every point. -/
theorem iblk1_apply (c : Dev nD) (t : Fin cfg0.N) (d k : Fin 96) :
    (iblk m c 1 t : Vec Ideal S96x96 .f32) (ix2 d k) = (V m c main_arg1 : S96x96.Idx → EReal) (ix2 d k) := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 96 + 1 * d.val = d.val; rw [e0]; omega
  | ⟨1, _⟩ => show win0_1.index t (1 : Fin 2) * 96 + 1 * k.val = k.val; rw [e1]; omega

theorem iblk2_apply (c : Dev nD) (t : Fin cfg0.N) (d k : Fin 96) :
    (iblk m c 2 t : Vec Ideal S96x96 .f32) (ix2 d k) = (V m c main_arg2 : S96x96.Idx → EReal) (ix2 d k) := by
  obtain ⟨-, -, -, -, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 96 + 1 * d.val = d.val; rw [e0]; omega
  | ⟨1, _⟩ => show win0_2.index t (1 : Fin 2) * 96 + 1 * k.val = k.val; rw [e1]; omega

theorem iblk3_apply (c : Dev nD) (t : Fin cfg0.N) (d k : Fin 96) :
    (iblk m c 3 t : Vec Ideal S96x96 .f32) (ix2 d k) = (V m c main_arg3 : S96x96.Idx → EReal) (ix2 d k) := by
  obtain ⟨-, -, -, -, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 96 + 1 * d.val = d.val; rw [e0]; omega
  | ⟨1, _⟩ => show win0_3.index t (1 : Fin 2) * 96 + 1 * k.val = k.val; rw [e1]; omega

theorem iblk4_apply (c : Dev nD) (t : Fin cfg0.N) (d k : Fin 96) :
    (iblk m c 4 t : Vec Ideal S96x96 .f32) (ix2 d k) = (V m c main_arg4 : S96x96.Idx → EReal) (ix2 d k) := by
  obtain ⟨-, -, -, -, -, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 96 + 1 * d.val = d.val; rw [e0]; omega
  | ⟨1, _⟩ => show win0_4.index t (1 : Fin 2) * 96 + 1 * k.val = k.val; rw [e1]; omega

/-- The bias block is the whole bias row at every point. -/
theorem iblk5_apply (c : Dev nD) (t : Fin cfg0.N) (k : Fin 96) :
    (iblk m c 5 t : Vec Ideal S1x96 .f32) (ix2 (0 : Fin 1) k) = (V m c main_v3 : S1x96.Idx → EReal) (ix2 (0 : Fin 1) k) := by
  obtain ⟨-, -, -, -, -, -, -, -, -, -, -, -, -, -, e0, e1⟩ := idx_facts t
  unfold iblk
  rw [View.read_apply]
  show V m c main_v3 _ = V m c main_v3 _
  congr 1
  funext a
  apply Fin.ext
  match a with
  | ⟨0, _⟩ => show win0_5.index t (0 : Fin 2) * 1 + 1 * (0 : Fin 1).val = (0 : Fin 1).val; rw [e0]; rfl
  | ⟨1, _⟩ => show win0_5.index t (1 : Fin 2) * 96 + 1 * k.val = k.val; rw [e1]; omega

/-- The result array by coordinates: at window w, token n, channel k, one window of attention on window w of the
    regrouped input, with the weight matrices and the bias row as the region finds them. -/
def resultAt (c : Dev nD) (w : Fin 3456) (n : Fin 216) (k : Fin 96) : EReal :=
  Cert.Attn.window (fun n' c' => (V m c main_v2 : S3456x216x96.Idx → EReal) (ix3 w n' c'))
    (fun d c' => (V m c main_arg1 : S96x96.Idx → EReal) (ix2 d c'))
    (fun d c' => (V m c main_arg2 : S96x96.Idx → EReal) (ix2 d c'))
    (fun d c' => (V m c main_arg3 : S96x96.Idx → EReal) (ix2 d c'))
    (fun c' d => (V m c main_arg4 : S96x96.Idx → EReal) (ix2 c' d))
    (fun c' => (V m c main_v3 : S1x96.Idx → EReal) (ix2 (0 : Fin 1) c')) n k

/-- The result array as an array. -/
def result (c : Dev nD) : S3456x216x96.Idx → EReal := fun i =>
  resultAt m c ⟨(i 0).val, (i 0).isLt⟩ ⟨(i 1).val, (i 1).isLt⟩ ⟨(i 2).val, (i 2).isLt⟩

theorem result_ix3 (c : Dev nD) (w : Fin 3456) (n : Fin 216) (k : Fin 96) : result m c (ix3 w n k) = resultAt m c w n k := rfl

/-- What the body leaves at window g, token n, channel k of point t's output block: the result at window 24·t + g. -/
theorem out_apply (c : Dev nD) (t : Fin cfg0.N) (g : Fin 24) (n : Fin 216) (k : Fin 96) (w : Fin 3456)
    (hw : w.val = 24 * t.val + g.val) :
    k0_pay1 (F := Ideal) (k0_pay3 (iblk m c 4 t)) (k0_pay4 (iblk m c 0 t) (iblk m c 3 t))
        (k0_pay5 (iblk m c 0 t) (iblk m c 1 t) (iblk m c 2 t)) (constant S24x216x96 .f32 0x00000000#32) (iblk m c 5 t) (ix3 g n k)
      = resultAt m c w n k := by
  refine (Cert.KernelWindow.payload_apply (iblk m c 0 t) (iblk m c 1 t) (iblk m c 2 t) (iblk m c 3 t) (iblk m c 4 t) (iblk m c 5 t) g n k).trans ?_
  unfold resultAt
  rw [show (fun n' c' => (iblk m c 0 t : Vec Ideal S24x216x96 .f32) (ix3 g n' c')) = (fun n' c' => (V m c main_v2 : S3456x216x96.Idx → EReal) (ix3 w n' c'))
        from funext fun n' => funext fun c' => iblk0_apply m c t g n' c' w hw,
      show (fun d c' => (iblk m c 1 t : Vec Ideal S96x96 .f32) (ix2 d c')) = (fun d c' => (V m c main_arg1 : S96x96.Idx → EReal) (ix2 d c'))
        from funext fun d => funext fun c' => iblk1_apply m c t d c',
      show (fun d c' => (iblk m c 2 t : Vec Ideal S96x96 .f32) (ix2 d c')) = (fun d c' => (V m c main_arg2 : S96x96.Idx → EReal) (ix2 d c'))
        from funext fun d => funext fun c' => iblk2_apply m c t d c',
      show (fun d c' => (iblk m c 3 t : Vec Ideal S96x96 .f32) (ix2 d c')) = (fun d c' => (V m c main_arg3 : S96x96.Idx → EReal) (ix2 d c'))
        from funext fun d => funext fun c' => iblk3_apply m c t d c',
      show (fun c' d => (iblk m c 4 t : Vec Ideal S96x96 .f32) (ix2 c' d)) = (fun c' d => (V m c main_arg4 : S96x96.Idx → EReal) (ix2 c' d))
        from funext fun c' => funext fun d => iblk4_apply m c t c' d,
      show (fun c' => (iblk m c 5 t : Vec Ideal S1x96 .f32) (ix2 (0 : Fin 1) c')) = (fun c' => (V m c main_v3 : S1x96.Idx → EReal) (ix2 (0 : Fin 1) c'))
        from funext fun c' => iblk5_apply m c t c']

/-- WHAT POINT t WRITES BACK is block t of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz3]
  simp only [View.ld_unit_zero (S := S24x216x96) hz3, View.ld_unit_zero (S := S96x96) hz2, View.ld_unit_zero (S := S1x96) hz2]
  obtain ⟨-, -, -, e0, e1, e2, -⟩ := idx_facts t
  have hN : cfg0.N = 144 := N_0
  funext j
  obtain ⟨g, n, k, rfl⟩ : ∃ (g : Fin 24) (n : Fin 216) (k : Fin 96), j = ix3 g n k := ⟨j 0, j 1, j 2, eq_ix3 j⟩
  have hw : 24 * t.val + g.val < 3456 := by have := t.isLt; have := g.isLt; omega
  refine (out_apply m c t g n k ⟨24 * t.val + g.val, hw⟩ rfl).trans ?_
  show resultAt m c _ n k = result m c (((cfg0.win 6).blk t).view.emb (ix3 g n k))
  unfold result
  congr 1 <;> apply Fin.ext
  · show 24 * t.val + g.val = win0_6.index t (0 : Fin 3) * 24 + 1 * g.val; rw [e0]; omega
  · show n.val = win0_6.index t (1 : Fin 3) * 216 + 1 * n.val; rw [e1]; omega
  · show k.val = win0_6.index t (2 : Fin 3) * 96 + 1 * k.val; rw [e2]; omega

/-- An index of the result array is in point t's block iff each coordinate is in the block's range on its axis. -/
theorem mem_blk (t : Fin cfg0.N) (i : S3456x216x96.Idx) :
    i ∈ ((cfg0.win 6).blk t).view.set ↔ ∀ a : Fin 3, win0_6.index t a * S24x216x96.size a ≤ (i a).val ∧ (i a).val < win0_6.index t a * S24x216x96.size a + S24x216x96.size a := by
  show i ∈ ((View.whole main_v4).slice (win0_6.rect t)).set ↔ _
  rw [View.set_slice_whole, Rect.mem_set_unit]
  exact Iff.rfl

/-- The 144 output blocks tile the result array: window w lies in the block of point w / 24. -/
theorem cover (i : S3456x216x96.Idx) :
    ∃ t : Fin cfg0.N, (cfg0.win 6).flush t = true ∧ i ∈ ((cfg0.win 6).blk t).view.set := by
  have hi0 : (i 0).val < 3456 := (i 0).isLt
  have hi1 : (i 1).val < 216 := (i 1).isLt
  have hi2 : (i 2).val < 96 := (i 2).isLt
  have hN : cfg0.N = 144 := N_0
  have ht : (i 0).val / 24 < cfg0.N := by rw [hN]; omega
  obtain ⟨-, -, -, e0, e1, e2, -⟩ := idx_facts ⟨(i 0).val / 24, ht⟩
  refine ⟨⟨(i 0).val / 24, ht⟩, flush0_6 _, ?_⟩
  rw [mem_blk]
  intro a
  match a with
  | ⟨0, _⟩ => show win0_6.index ⟨(i 0).val / 24, ht⟩ (0 : Fin 3) * 24 ≤ (i 0).val ∧ (i 0).val < win0_6.index ⟨(i 0).val / 24, ht⟩ (0 : Fin 3) * 24 + 24; rw [e0]; show (i 0).val / 24 * 24 ≤ (i 0).val ∧ (i 0).val < (i 0).val / 24 * 24 + 24; omega
  | ⟨1, _⟩ => show win0_6.index ⟨(i 0).val / 24, ht⟩ (1 : Fin 3) * 216 ≤ (i 1).val ∧ (i 1).val < win0_6.index ⟨(i 0).val / 24, ht⟩ (1 : Fin 3) * 216 + 216; rw [e1]; omega
  | ⟨2, _⟩ => show win0_6.index ⟨(i 0).val / 24, ht⟩ (2 : Fin 3) * 96 ≤ (i 2).val ∧ (i 2).val < win0_6.index ⟨(i 0).val / 24, ht⟩ (2 : Fin 3) * 96 + 96; rw [e2]; omega

/-- THE RESULT ARRAY after the run is `result`. -/
theorem final (c : Dev nD) : (dats m 0 c).arrAt 6 cfg0.N = result m c :=
  (dats m 0 c).arrAt_eq_of_cover 6 (result m c) (fun t _ => flushed_eq m c t) (cover)

end Cert.KernelBlocks

end
-- ==== Proof.KernelRun.lean ====
/-
  The kernel program's run, with its result named.

  Before the region the program regroups the input volume into 3456 windows (three reshapes) and makes the bias a row;
  after it, the program regroups the 3456 result windows by batch, moves the channel axis to the front and reshapes
  back to the volume. The last two steps are `tail`; the reference ends with the same two steps. So the program's
  result is `tail` of the batch-regrouped `result` array.
-/
import proofs.«149451_j62474594287826_1_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelRun

open Cert.KernelIdeal Cert.KernelIdeal.Gen Cert.KernelBlocks

variable (m : (ℓ : Loc nD τ sig) → Buf (Elt Ideal) ℓ) (ρ : Dev nD → PrngReg)

/-- The two last steps of both programs: the channel axis moved in front of the window and token axes, then the
    reshape to the volume. -/
def tail (y : S2x1728x216x96.Idx → EReal) : S2x96x72x72x72.Idx → EReal :=
  shapeCast S2x96x72x72x72 (transpose S2x96x1728x216 [0, 3, 1, 2] y transposes_S2x1728x216x96_S2x96x1728x216_0_3_1_2)
    shapeCasts_S2x96x1728x216_S2x96x72x72x72

/-- The regrouped input as the region finds it: three reshapes of the input volume. -/
theorem V_main_v2 (c : Dev nD) : (V m c main_v2 : S3456x216x96.Idx → EReal)
    = shapeCast S3456x216x96 (shapeCast S2x1728x216x96 (shapeCast S2x373248x96
        (m ((c : Thread nD τ).loc main_arg0) : S2x96x72x72x72.Idx → EReal) shapeCasts_S2x96x72x72x72_S2x373248x96)
        shapeCasts_S2x373248x96_S2x1728x216x96) shapeCasts_S2x1728x216x96_S3456x216x96 := by
  show StableHlo.after (hostOps0 (F := Ideal)) (fun b => m (c, b)) (Proc.devRef .tc main_v2) = _
  after_results
  rfl

/-- The bias row as the region finds it: the bias vector as one row. -/
theorem V_main_v3 (c : Dev nD) : (V m c main_v3 : S1x96.Idx → EReal)
    = shapeCast S1x96 (m ((c : Thread nD τ).loc main_arg5) : S96.Idx → EReal) shapeCasts_S96_S1x96 := by
  show StableHlo.after (hostOps0 (F := Ideal)) (fun b => m (c, b)) (Proc.devRef .tc main_v3) = _
  after_results
  rfl

/-- The program's result after the lines that follow the region. -/
theorem tail_eq (c : Dev nD) :
    Pipeline.afterTail₀ cfgs (dats m) 0 (V0 m) [hostOps1] c main_v7
      = tail (shapeCast S2x1728x216x96 (result m c) shapeCasts_S3456x216x96_S2x1728x216x96) := by
  unfold Pipeline.afterTail₀
  show StableHlo.after (hostOps1 (F := Ideal)) _ (Proc.devRef .tc main_v7) = _
  after_results
  have e := (Pipeline.withArrays_arr spec0 launch0.win.arr_inj c (V0 m c) (fun w => (dats m 0 c).arrAt w cfg0.N) 6).trans (final m c)
  rw [show Pipeline.withArrays (cfgs 0).spec c (V0 m c) (fun w => (dats m 0 c).arrAt w (cfgs 0).N) (Proc.devRef .tc main_v4) = result m c from e]
  rfl

/-- THE RUN: every weakly fair execution of the kernel program ends with its result at `tail` of the batch-regrouped
    `result` array, and its arguments as launched. -/
theorem run : θ_run defs (onTc (τ := τ) (main (F := Ideal))) ⟨m, fun _ => 0, ρ⟩ (fun r => ∀ c : Dev nD,
      r.2.mem ((c.tc : Thread nD τ).loc main_v7) = tail (shapeCast S2x1728x216x96 (result m c) shapeCasts_S3456x216x96_S2x1728x216x96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelRun

end
-- ==== Proof.RefWindow.lean ====
/-
  The reference's result before its final transpose, read at batch b, window g, token n, channel c, is one window
  of attention: `Attn.window` of window (b, g)'s 216×96 slice of the regrouped input.
-/
import proofs.«149451_j62474594287826_1_alg».proof.Proof.ReadP
import proofs.«149451_j62474594287826_1_alg».proof.Proof.Attn
import Idealize.ShloMosaic.Lib.ValueIdx
import Idealize.ShloMosaic.Lib.Pipeline.Value
import Idealize.ShloMosaic.PureOps.Ideal.Laws

noncomputable section

open scoped BigOperators

namespace Cert.RefWindow

open Idealize.ShloMosaic Idealize.ShloMosaic.ValueIdx Cert.ReferenceIdeal Cert.ReferenceIdeal.ReadP

/-! ## The operands as functions of coordinates -/

/-- Window (b, g)'s tokens: the regrouped input read at (b, g, ·, ·). -/
abbrev toks (x0 : (⟨S2x96x72x72x72, .f32⟩ : BufTy).Contents (Elt Ideal)) (b : Fin 2) (g : Fin 1728) :
    Fin 216 → Fin 96 → EReal :=
  fun n' c' => val_main_v1 (F := Ideal) x0 (ix4 b g n' c')

/-- A 96×96 weight matrix read at (row, column). -/
abbrev wmat (w : (⟨S96x96, .f32⟩ : BufTy).Contents (Elt Ideal)) : Fin 96 → Fin 96 → EReal :=
  fun d c' => w (ix2 d c')

/-! ## The three projections -/

/-- The query projection at (b, g, n, d) is row n of the window's tokens against row d of the weights. -/
theorem v2_at (x0 : (⟨S2x96x72x72x72, .f32⟩ : BufTy).Contents (Elt Ideal))
    (x1 : (⟨S96x96, .f32⟩ : BufTy).Contents (Elt Ideal)) (b : Fin 2) (g : Fin 1728) (n : Fin 216) (d : Fin 96) :
    val_main_v2 (F := Ideal) x0 x1 (ix4 b g n d) = Cert.Attn.proj (toks x0 b g) (wmat x1) n d := by
  rw [val_main_v2_apply]
  unfold Cert.Attn.proj
  refine Finset.sum_congr rfl fun k _ => ?_
  have el : lidx_main_v2 (ix4 b g n d) k = ix4 b g n k := funext fun a => Fin.ext (by
    match a with | ⟨0, _⟩ => rfl | ⟨1, _⟩ => rfl | ⟨2, _⟩ => rfl | ⟨3, _⟩ => rfl)
  have er : ridx_main_v2 (ix4 b g n d) k = ix2 d k := funext fun a => Fin.ext (by
    match a with | ⟨0, _⟩ => rfl | ⟨1, _⟩ => rfl)
  rw [el, er]

/-- The key projection at (b, g, n, d). -/
theorem v3_at (x0 : (⟨S2x96x72x72x72, .f32⟩ : BufTy).Contents (Elt Ideal))
    (x2 : (⟨S96x96, .f32⟩ : BufTy).Contents (Elt Ideal)) (b : Fin 2) (g : Fin 1728) (n : Fin 216) (d : Fin 96) :
    val_main_v3 (F := Ideal) x0 x2 (ix4 b g n d) = Cert.Attn.proj (toks x0 b g) (wmat x2) n d := by
  rw [val_main_v3_apply]
  unfold Cert.Attn.proj
  refine Finset.sum_congr rfl fun k _ => ?_
  have el : lidx_main_v3 (ix4 b g n d) k = ix4 b g n k := funext fun a => Fin.ext (by
    match a with | ⟨0, _⟩ => rfl | ⟨1, _⟩ => rfl | ⟨2, _⟩ => rfl | ⟨3, _⟩ => rfl)
  have er : ridx_main_v3 (ix4 b g n d) k = ix2 d k := funext fun a => Fin.ext (by
    match a with | ⟨0, _⟩ => rfl | ⟨1, _⟩ => rfl)
  rw [el, er]

/-- The value projection at (b, g, n, d). -/
theorem v4_at (x0 : (⟨S2x96x72x72x72, .f32⟩ : BufTy).Contents (Elt Ideal))
    (x3 : (⟨S96x96, .f32⟩ : BufTy).Contents (Elt Ideal)) (b : Fin 2) (g : Fin 1728) (n : Fin 216) (d : Fin 96) :
    val_main_v4 (F := Ideal) x0 x3 (ix4 b g n d) = Cert.Attn.proj (toks x0 b g) (wmat x3) n d := by
  rw [val_main_v4_apply]
  unfold Cert.Attn.proj
  refine Finset.sum_congr rfl fun k _ => ?_
  have el : lidx_main_v4 (ix4 b g n d) k = ix4 b g n k := funext fun a => Fin.ext (by
    match a with | ⟨0, _⟩ => rfl | ⟨1, _⟩ => rfl | ⟨2, _⟩ => rfl | ⟨3, _⟩ => rfl)
  have er : ridx_main_v4 (ix4 b g n d) k = ix2 d k := funext fun a => Fin.ext (by
    match a with | ⟨0, _⟩ => rfl | ⟨1, _⟩ => rfl)
  rw [el, er]

/-! ## The scaled scores -/

/-- The scores before scaling at (b, g, n, m): query row n against key row m. -/
theorem v5_at (x0 : (⟨S2x96x72x72x72, .f32⟩ : BufTy).Contents (Elt Ideal))
    (x1 x2 : (⟨S96x96, .f32⟩ : BufTy).Contents (Elt Ideal)) (b : Fin 2) (g : Fin 1728) (n m : Fin 216) :
    val_main_v5 (F := Ideal) x0 x1 x2 (ix4 b g n m)
      = ∑ d : Fin 96, Cert.Attn.proj (toks x0 b g) (wmat x1) n d * Cert.Attn.proj (toks x0 b g) (wmat x2) m d := by
  rw [val_main_v5_apply]
  refine Finset.sum_congr rfl fun k _ => ?_
  have el : lidx_main_v5 (ix4 b g n m) k = ix4 b g n k := funext fun a => Fin.ext (by
    match a with | ⟨0, _⟩ => rfl | ⟨1, _⟩ => rfl | ⟨2, _⟩ => rfl | ⟨3, _⟩ => rfl)
  have er : ridx_main_v5 (ix4 b g n m) k = ix4 b g m k := funext fun a => Fin.ext (by
    match a with | ⟨0, _⟩ => rfl | ⟨1, _⟩ => rfl | ⟨2, _⟩ => rfl | ⟨3, _⟩ => rfl)
  rw [el, er, v2_at, v3_at]

/-- The scaled scores at (b, g, n, m). -/
theorem v7_at (x0 : (⟨S2x96x72x72x72, .f32⟩ : BufTy).Contents (Elt Ideal))
    (x1 x2 : (⟨S96x96, .f32⟩ : BufTy).Contents (Elt Ideal)) (b : Fin 2) (g : Fin 1728) (n m : Fin 216) :
    val_main_v7 (F := Ideal) x0 x1 x2 (ix4 b g n m)
      = Cert.Attn.score (Cert.Attn.proj (toks x0 b g) (wmat x1)) (Cert.Attn.proj (toks x0 b g) (wmat x2)) n m := by
  rw [val_main_v7_apply, v5_at, val_main_v6_apply, val_main_cst_apply]
  rfl

/-! ## The row maximum -/

/-- Result index (b, g, n) of the reduction over the last axis, with coordinate k put back, is (b, g, n, k). -/
theorem lift_ix3 (h : S2x1728x216x216.Reduces [3] S2x1728x216) (b : Fin 2) (g : Fin 1728) (n : Fin 216)
    (k : Fin (S2x1728x216x216.size 3)) :
    h.lift (ix3 b g n) k = ix4 b g n (⟨k.val, k.isLt⟩ : Fin 216) := by
  funext a; apply Fin.ext
  match a with | ⟨0, _⟩ => rfl | ⟨1, _⟩ => rfl | ⟨2, _⟩ => rfl | ⟨3, _⟩ => rfl

/-- The host's maximum-reduce over the last axis, from −∞, at (b, g, n): the fold of max over that row. -/
theorem reduceMax_at (y : FVec Ideal S2x1728x216x216 .f32) (h' : S2x1728x216x216.ReducesTo [3] S2x1728x216)
    (hu : 0 < S_.numel) (b : Fin 2) (g : Fin 1728) (n : Fin 216) :
    Host.reduce FloatOps.maximumf y (constant (F := Ideal) S_ .f32 0xFF800000#32) h' hu (ix3 b g n)
      = (Finset.univ : Finset (Fin 216)).fold max (Ideal.ofBits .f32 0xFF800000#32) fun m => y (ix4 b g n m) := by
  have h : S2x1728x216x216.Reduces [3] S2x1728x216 := by decide
  rw [Host.reduce_eq_fold_single FloatOps.maximumf y _ h' h hu]
  have hf : (y ∘ h.lift (ix3 b g n)) = fun k : Fin 216 => y (ix4 b g n k) :=
    funext fun k => congrArg y (lift_ix3 h b g n k)
  exact congrArg (fun f => Finset.fold max (Ideal.ofBits .f32 0xFF800000#32) f (Finset.univ : Finset (Fin 216))) hf

/-- The first row maximum at (b, g, n). -/
theorem v8_at (x0 : (⟨S2x96x72x72x72, .f32⟩ : BufTy).Contents (Elt Ideal))
    (x1 x2 : (⟨S96x96, .f32⟩ : BufTy).Contents (Elt Ideal)) (b : Fin 2) (g : Fin 1728) (n : Fin 216) :
    val_main_v8 (F := Ideal) x0 x1 x2 (ix3 b g n)
      = (Finset.univ : Finset (Fin 216)).fold max Cert.Attn.negInf fun m =>
          Cert.Attn.score (Cert.Attn.proj (toks x0 b g) (wmat x1)) (Cert.Attn.proj (toks x0 b g) (wmat x2)) n m := by
  unfold val_main_v8 val_main_cst_0
  refine (reduceMax_at _ _ _ b g n).trans ?_
  unfold Cert.Attn.negInf
  exact congrArg (fun f => Finset.fold max (Ideal.ofBits .f32 0xFF800000#32) f (Finset.univ : Finset (Fin 216)))
    (funext fun m => v7_at x0 x1 x2 b g n m)

/-- The row maximum, compared with −∞ once more, at (b, g, n). -/
theorem v10_at (x0 : (⟨S2x96x72x72x72, .f32⟩ : BufTy).Contents (Elt Ideal))
    (x1 x2 : (⟨S96x96, .f32⟩ : BufTy).Contents (Elt Ideal)) (b : Fin 2) (g : Fin 1728) (n : Fin 216) :
    val_main_v10 (F := Ideal) x0 x1 x2 (ix3 b g n)
      = Cert.Attn.rowMax
          (Cert.Attn.score (Cert.Attn.proj (toks x0 b g) (wmat x1)) (Cert.Attn.proj (toks x0 b g) (wmat x2))) n := by
  rw [val_main_v10_apply, v8_at, val_main_v9_apply, val_main_cst_1_apply]
  rfl

/-- The row maximum spread back over the row, at (b, g, n, m). -/
theorem v12_at (x0 : (⟨S2x96x72x72x72, .f32⟩ : BufTy).Contents (Elt Ideal))
    (x1 x2 : (⟨S96x96, .f32⟩ : BufTy).Contents (Elt Ideal)) (b : Fin 2) (g : Fin 1728) (n m : Fin 216) :
    val_main_v12 (F := Ideal) x0 x1 x2 (ix4 b g n m)
      = Cert.Attn.rowMax
          (Cert.Attn.score (Cert.Attn.proj (toks x0 b g) (wmat x1)) (Cert.Attn.proj (toks x0 b g) (wmat x2))) n := by
  rw [val_main_v12_apply, val_main_v11_apply]
  have e : idx_main_v11 (idx_main_v12 (ix4 b g n m)) = ix3 b g n := funext fun a => Fin.ext (by
    match a with | ⟨0, _⟩ => rfl | ⟨1, _⟩ => rfl | ⟨2, _⟩ => rfl)
  rw [e, v10_at]

/-! ## The softmax -/

/-- The shifted exponential at (b, g, n, m). -/
theorem v14_at (x0 : (⟨S2x96x72x72x72, .f32⟩ : BufTy).Contents (Elt Ideal))
    (x1 x2 : (⟨S96x96, .f32⟩ : BufTy).Contents (Elt Ideal)) (b : Fin 2) (g : Fin 1728) (n m : Fin 216) :
    val_main_v14 (F := Ideal) x0 x1 x2 (ix4 b g n m)
      = Cert.Attn.expo
          (Cert.Attn.score (Cert.Attn.proj (toks x0 b g) (wmat x1)) (Cert.Attn.proj (toks x0 b g) (wmat x2))) n m := by
  rw [val_main_v14_apply, val_main_v13_apply, v7_at, v12_at]
  rfl

/-- The row's sum of exponentials at (b, g, n). -/
theorem v15_at (x0 : (⟨S2x96x72x72x72, .f32⟩ : BufTy).Contents (Elt Ideal))
    (x1 x2 : (⟨S96x96, .f32⟩ : BufTy).Contents (Elt Ideal)) (b : Fin 2) (g : Fin 1728) (n : Fin 216) :
    val_main_v15 (F := Ideal) x0 x1 x2 (ix3 b g n)
      = ∑ m' : Fin 216, Cert.Attn.expo
          (Cert.Attn.score (Cert.Attn.proj (toks x0 b g) (wmat x1)) (Cert.Attn.proj (toks x0 b g) (wmat x2))) n m' := by
  rw [val_main_v15_apply, val_main_cst_2_apply, Ideal.ofBits_def, Ideal.ofBits_zero_f32, zero_add]
  refine Finset.sum_congr rfl fun k _ => ?_
  have e : idx_main_v15 (ix3 b g n) k = ix4 b g n k := funext fun a => Fin.ext (by
    match a with | ⟨0, _⟩ => rfl | ⟨1, _⟩ => rfl | ⟨2, _⟩ => rfl | ⟨3, _⟩ => rfl)
  rw [e, v14_at]

/-- The row's sum spread back over the row, at (b, g, n, m). -/
theorem v17_at (x0 : (⟨S2x96x72x72x72, .f32⟩ : BufTy).Contents (Elt Ideal))
    (x1 x2 : (⟨S96x96, .f32⟩ : BufTy).Contents (Elt Ideal)) (b : Fin 2) (g : Fin 1728) (n m : Fin 216) :
    val_main_v17 (F := Ideal) x0 x1 x2 (ix4 b g n m)
      = ∑ m' : Fin 216, Cert.Attn.expo
          (Cert.Attn.score (Cert.Attn.proj (toks x0 b g) (wmat x1)) (Cert.Attn.proj (toks x0 b g) (wmat x2))) n m' := by
  rw [val_main_v17_apply, val_main_v16_apply]
  have e : idx_main_v16 (idx_main_v17 (ix4 b g n m)) = ix3 b g n := funext fun a => Fin.ext (by
    match a with | ⟨0, _⟩ => rfl | ⟨1, _⟩ => rfl | ⟨2, _⟩ => rfl)
  rw [e, v15_at]

/-- The softmax weight at (b, g, n, m). -/
theorem v18_at (x0 : (⟨S2x96x72x72x72, .f32⟩ : BufTy).Contents (Elt Ideal))
    (x1 x2 : (⟨S96x96, .f32⟩ : BufTy).Contents (Elt Ideal)) (b : Fin 2) (g : Fin 1728) (n m : Fin 216) :
    val_main_v18 (F := Ideal) x0 x1 x2 (ix4 b g n m)
      = Cert.Attn.prob
          (Cert.Attn.score (Cert.Attn.proj (toks x0 b g) (wmat x1)) (Cert.Attn.proj (toks x0 b g) (wmat x2))) n m := by
  rw [val_main_v18_apply, v14_at, v17_at]
  rfl

/-! ## Mixing, the output projection and the bias -/

/-- The weights applied to the values at (b, g, n, d). -/
theorem v19_at (x0 : (⟨S2x96x72x72x72, .f32⟩ : BufTy).Contents (Elt Ideal))
    (x1 x2 x3 : (⟨S96x96, .f32⟩ : BufTy).Contents (Elt Ideal)) (b : Fin 2) (g : Fin 1728) (n : Fin 216) (d : Fin 96) :
    val_main_v19 (F := Ideal) x0 x1 x2 x3 (ix4 b g n d)
      = Cert.Attn.mix
          (Cert.Attn.prob
            (Cert.Attn.score (Cert.Attn.proj (toks x0 b g) (wmat x1)) (Cert.Attn.proj (toks x0 b g) (wmat x2))))
          (Cert.Attn.proj (toks x0 b g) (wmat x3)) n d := by
  rw [val_main_v19_apply]
  unfold Cert.Attn.mix
  refine Finset.sum_congr rfl fun k _ => ?_
  have el : lidx_main_v19 (ix4 b g n d) k = ix4 b g n k := funext fun a => Fin.ext (by
    match a with | ⟨0, _⟩ => rfl | ⟨1, _⟩ => rfl | ⟨2, _⟩ => rfl | ⟨3, _⟩ => rfl)
  have er : ridx_main_v19 (ix4 b g n d) k = ix4 b g k d := funext fun a => Fin.ext (by
    match a with | ⟨0, _⟩ => rfl | ⟨1, _⟩ => rfl | ⟨2, _⟩ => rfl | ⟨3, _⟩ => rfl)
  rw [el, er, v18_at, v4_at]

/-- The bias spread over the array, at (b, g, n, c). -/
theorem v22_at (x5 : (⟨S96, .f32⟩ : BufTy).Contents (Elt Ideal)) (b : Fin 2) (g : Fin 1728) (n : Fin 216) (c : Fin 96) :
    val_main_v22 (F := Ideal) x5 (ix4 b g n c) = x5 (ix1 c) := by
  rw [val_main_v22_apply, val_main_v21_apply]
  exact congrArg x5 (funext fun a => Fin.ext (by match a with | ⟨0, _⟩ => rfl))

/-- The reference's value before the transpose at (b, g, n, c). -/
theorem val_main_v23_window (x0 : (⟨S2x96x72x72x72, .f32⟩ : BufTy).Contents (Elt Ideal))
    (x1 x2 x3 x4 : (⟨S96x96, .f32⟩ : BufTy).Contents (Elt Ideal)) (x5 : (⟨S96, .f32⟩ : BufTy).Contents (Elt Ideal))
    (b : Fin 2) (g : Fin 1728) (n : Fin 216) (c : Fin 96) :
    val_main_v23 (F := Ideal) x0 x1 x2 x3 x4 x5 (ix4 b g n c)
      = Cert.Attn.window (fun n' c' => val_main_v1 (F := Ideal) x0 (ix4 b g n' c')) (fun d c' => x1 (ix2 d c'))
          (fun d c' => x2 (ix2 d c')) (fun d c' => x3 (ix2 d c')) (fun c' d => x4 (ix2 c' d)) (fun c' => x5 (ix1 c')) n c := by
  rw [val_main_v23_apply, v22_at, val_main_v20_apply]
  unfold Cert.Attn.window
  refine congrArg (· + x5 (ix1 c)) (Finset.sum_congr rfl fun k _ => ?_)
  have el : lidx_main_v20 (ix4 b g n c) k = ix4 b g n k := funext fun a => Fin.ext (by
    match a with | ⟨0, _⟩ => rfl | ⟨1, _⟩ => rfl | ⟨2, _⟩ => rfl | ⟨3, _⟩ => rfl)
  have er : ridx_main_v20 (ix4 b g n c) k = ix2 c k := funext fun a => Fin.ext (by
    match a with | ⟨0, _⟩ => rfl | ⟨1, _⟩ => rfl)
  rw [el, er, v19_at]

end Cert.RefWindow

end
-- ==== Proof.Bridge.lean ====
/-
  The two programs' results are one array.

  The kernel's result array, regrouped by batch, is the reference's result before its final transpose: window
  b·1728 + g of the kernel's 3456 windows is window (b, g) of the reference's, their token slices are the same entries
  of the regrouped input, the weight matrices are the arguments themselves, the kernel's bias row is the bias vector,
  and on equal slices both sides are `Attn.window`. Both programs then apply the same last two steps.
-/
import proofs.«149451_j62474594287826_1_alg».proof.Proof.KernelRun
import proofs.«149451_j62474594287826_1_alg».proof.Proof.RefWindow
import Idealize.ShloMosaic.Lib.ValueLayout

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelBlocks

variable (m : (ℓ : Loc nD τ sig) → Buf (Elt Ideal) ℓ)

/-- Window b·1728 + g of the kernel's regrouped input is window (b, g) of the reference's. -/
theorem input_window (c : Dev nD) (b : Fin 2) (g : Fin 1728) (n : Fin 216) (k : Fin 96) (w : Fin 3456)
    (hw : w.val = b.val * 1728 + g.val) :
    (V m c main_v2 : S3456x216x96.Idx → EReal) (ix3 w n k)
      = Cert.ReferenceIdeal.ReadP.val_main_v1 (F := Ideal) (m ((c : Thread nD τ).loc main_arg0)) (ix4 b g n k) := by
  rw [Cert.KernelRun.V_main_v2]
  refine (shapeCast_apply _ _ (ix3 w n k) (ix4 b g n k) ?_).trans ?_
  · rw [Shape.rowMajor_val_four, Shape.rowMajor_val_three]
    show ((b.val * 1728 + g.val) * 216 + n.val) * 96 + k.val = (w.val * 216 + n.val) * 96 + k.val
    rw [hw]
  · rfl

/-- The kernel's bias row is the bias vector. -/
theorem bias_row (c : Dev nD) (k : Fin 96) :
    (V m c main_v3 : S1x96.Idx → EReal) (ix2 (0 : Fin 1) k) = (m ((c : Thread nD τ).loc main_arg5) : S96.Idx → EReal) (ix1 k) := by
  rw [Cert.KernelRun.V_main_v3]
  exact shapeCast_a_1a_apply _ _ _ _

/-- The kernel's result array regrouped by batch is the reference's result before its last two steps. -/
theorem regrouped_result (c : Dev nD) :
    shapeCast S2x1728x216x96 (result m c) shapeCasts_S3456x216x96_S2x1728x216x96
      = Cert.ReferenceIdeal.ReadP.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, g, n, k, rfl⟩ : ∃ (b : Fin 2) (g : Fin 1728) (n : Fin 216) (k : Fin 96), i = ix4 b g n k :=
    ⟨i 0, i 1, i 2, i 3, eq_ix4 i⟩
  have hw : b.val * 1728 + g.val < 3456 := by have := b.isLt; have := g.isLt; omega
  refine (shapeCast_apply _ _ (ix4 b g n k) (ix3 ⟨b.val * 1728 + g.val, hw⟩ n k) ?_).trans ?_
  · rw [Shape.rowMajor_val_three, Shape.rowMajor_val_four]
    rfl
  rw [result_ix3, Cert.RefWindow.val_main_v23_window]
  unfold resultAt
  rw [show (fun n' c' => (V m c main_v2 : S3456x216x96.Idx → EReal) (ix3 ⟨b.val * 1728 + g.val, hw⟩ n' c'))
        = (fun n' c' => Cert.ReferenceIdeal.ReadP.val_main_v1 (F := Ideal) (m ((c : Thread nD τ).loc main_arg0)) (ix4 b g n' c'))
        from funext fun n' => funext fun c' => input_window m c b g n' c' _ rfl,
      show (fun c' => (V m c main_v3 : S1x96.Idx → EReal) (ix2 (0 : Fin 1) c')) = (fun c' => (m ((c : Thread nD τ).loc main_arg5) : S96.Idx → EReal) (ix1 c'))
        from funext fun c' => bias_row m c c',
      V_main_arg1 m c, V_main_arg2 m c, V_main_arg3 m c, V_main_arg4 m c]

end Cert.Bridge

end
-- ==== Proof.lean ====
/-
  Windowed self-attention over a 72³ volume with 96 channels: a tiled kernel against its plain reference, equal on
  the extended reals.

  Both programs cut the volume into 3456 windows of 216 tokens and compute, window by window, the same function
  (`Cert.Attn.window`, Proof/Attn.lean): three projections of the tokens, scaled scores, a row softmax, the mix of the
  values, an output projection and a bias. The kernel works on 144 blocks of 24 windows, flattens each block for its
  projections and rounds intermediate values to a shorter float format, which on the extended reals is the identity;
  the reference works on all windows at once. The proof reads the kernel's stored value at an index as that function
  of its window's slice (Proof/KernelWindow.lean), tiles the result array with the 144 blocks (Proof/Blocks.lean), reads
  the lines around the region (Proof/KernelRun.lean), reads the reference at an index as the same function
  (Proof/RefWindow.lean, over the reference's operations read one at a time) and identifies the two slices
  (Proof/Bridge.lean). Both programs end with the same two steps, carried as one function. No law beyond re-indexing
  finite sums is used, so the finiteness of the inputs is never opened; the kernel's idealization records no rewrite,
  so that conjunct is `True`; the two kernel programs' frames are the generated ones, and the reference's frame is its
  generated run with the result dropped.
-/
import proofs.«149451_j62474594287826_1_alg».proof.Defs
import proofs.«149451_j62474594287826_1_alg».proof.Proof.Gen.Kernel
import proofs.«149451_j62474594287826_1_alg».proof.Proof.Gen.Kernel.Skeleton
import proofs.«149451_j62474594287826_1_alg».proof.Proof.Gen.Kernel.Launch
import proofs.«149451_j62474594287826_1_alg».proof.Proof.Gen.Kernel.Points
import proofs.«149451_j62474594287826_1_alg».proof.Proof.Gen.Kernel.Frame
import proofs.«149451_j62474594287826_1_alg».proof.Proof.Gen.KernelIdeal
import proofs.«149451_j62474594287826_1_alg».proof.Proof.Gen.KernelIdeal.Skeleton
import proofs.«149451_j62474594287826_1_alg».proof.Proof.Gen.KernelIdeal.Launch
import proofs.«149451_j62474594287826_1_alg».proof.Proof.Gen.KernelIdeal.Points
import proofs.«149451_j62474594287826_1_alg».proof.Proof.Gen.KernelIdeal.Frame
import proofs.«149451_j62474594287826_1_alg».proof.Proof.Gen.ReferenceIdeal
import proofs.«149451_j62474594287826_1_alg».proof.Proof.Gen.ReferenceIdeal.Run
import proofs.«149451_j62474594287826_1_alg».proof.Proof.Gen.Pre_finite_inputs
import proofs.«149451_j62474594287826_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end at the same array: the common last two steps applied
    to the kernel's batch-regrouped result, which is the reference's value before those steps. -/
theorem algebraic : Cert.algebraic_KernelIdeal_ReferenceIdeal := by
  intro m ρ m' ρ' _ hagree
  refine ⟨fun c => Cert.KernelRun.tail (shapeCast Cert.KernelIdeal.S2x1728x216x96 (Cert.KernelBlocks.result m c)
      Cert.KernelIdeal.Facts₀.shapeCasts_S3456x216x96_S2x1728x216x96), Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ReadP.val_main_v25_eq, (hagree c).1, (hagree c).2.1, (hagree c).2.2.1, (hagree c).2.2.2.1,
    (hagree c).2.2.2.2.1, (hagree c).2.2.2.2.2]
  beta_reduce
  rw [Cert.Bridge.regrouped_result m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
